-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S_ : Shape := ⟨0, ![]⟩

class Facts : Prop where
  bcast_S_S100000x1024 : S_.BroadcastsInDim S100000x1024 (![] : Fin 0 → Fin S100000x1024.rank)
  reducesTo_S100000x1024_S_d0_1 : S100000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S1024x4 .f32) (main_arg6 : FVec F S4 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4 .f32 := Host.absf main_arg5
  let main_cst_6 : FVec F S_ .f32 := constant S_ .f32 0x7F800000#32
  let main_v20 : FVec F S1024x4 .f32 := broadcastInDim S1024x4 ![] bcast_S_S1024x4 main_cst_6
  let main_v21 : IVec S1024x4 1 := cmpf .olt main_v19 main_v20
  let main_c_7 : IVec S_ 1 := constantI S_ 1 1#1
  let main_v22 : IVec S_ 1 := (fun x v => Host.reduce IntOp.andi x v reducesTo_S1024x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S100000x1024 .f32) (main_arg1 : IVec S100000 32) (main_arg2 : FVec F S1024x1024 .f32) (main_arg3 : FVec F S1024x1024 .f32) (main_arg4 : FVec F S1024 .f32) (main_arg5 : FVec F S1024x4 .f32) (main_arg6 : FVec F S4 .f32) : IVec S_ 1 :=
  let main_v0 : FVec F S100000x1024 .f32 := Host.absf main_arg0
  let main_cst : FVec F S_ .f32 := constant S_ .f32 0x7F800000#32
  let main_v1 : FVec F S100000x1024 .f32 := broadcastInDim S100000x1024 ![] bcast_S_S100000x1024 main_cst
  let main_v2 : IVec S100000x1024 1 := cmpf .olt main_v0 main_v1
  let main_c : IVec S_ 1 := constantI S_ 1 1#1
  let main_v3 : IVec S_ 1 := (fun x v => Host.reduce IntOp.andi x v reducesTo_S100000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_v13 main_v16
-- ==== Kernel.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S100000x1 : Shape := ⟨2, ![100000, 1]⟩
abbrev S4x1024 : Shape := ⟨2, ![4, 1024]⟩
abbrev S1x1024 : Shape := ⟨2, ![1, 1024]⟩
abbrev S1x4 : Shape := ⟨2, ![1, 4]⟩
abbrev S100000x4 : Shape := ⟨2, ![100000, 4]⟩
abbrev S2000x1024 : Shape := ⟨2, ![2000, 1024]⟩
abbrev S2000x1 : Shape := ⟨2, ![2000, 1]⟩
abbrev S2000x4 : Shape := ⟨2, ![2000, 4]⟩
abbrev S2000 : Shape := ⟨1, ![2000]⟩

abbrev nBuf : Space → Nat
  | .hbm => 14
  | .vmem => 11
  | .smem => 0
  | _ => 0

abbrev bufTy : (tb : Table) → Fin (tcTables nBuf tb) → BufTy
  | .hbm, ⟨0, _⟩ => ⟨S100000x1024, .f32⟩
  | .hbm, ⟨1, _⟩ => ⟨S100000, .i32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S100000x1, .i32⟩
  | .hbm, ⟨8, _⟩ => ⟨S1024x1024, .bf16⟩
  | .hbm, ⟨9, _⟩ => ⟨S1024x1024, .bf16⟩
  | .hbm, ⟨10, _⟩ => ⟨S4x1024, .f32⟩
  | .hbm, ⟨11, _⟩ => ⟨S1x1024, .f32⟩
  | .hbm, ⟨12, _⟩ => ⟨S1x4, .f32⟩
  | .hbm, ⟨13, _⟩ => ⟨S100000x4, .f32⟩
  | .local _ .vmem, ⟨0, _⟩ => ⟨S2000x1024, .f32⟩
  | .local _ .vmem, ⟨1, _⟩ => ⟨S2000x1024, .f32⟩
  | .local _ .vmem, ⟨2, _⟩ => ⟨S2000x1, .i32⟩
  | .local _ .vmem, ⟨3, _⟩ => ⟨S2000x1, .i32⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S4x1024, .f32⟩
  | .local _ .vmem, ⟨8, _⟩ => ⟨S1x4, .f32⟩
  | .local _ .vmem, ⟨9, _⟩ => ⟨S2000x4, .f32⟩
  | .local _ .vmem, ⟨10, _⟩ => ⟨S2000x4, .f32⟩
  | _, _ => ⟨S100000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x4 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S100000_S100000x1 : S100000.ShapeCasts S100000x1
  bitsLt_bf16_f32 : FTy.bits .bf16 < FTy.bits .f32
  transposes_S1024x4_S4x1024_1_0 : S1024x4.Transposes [1, 0] S4x1024
  shapeCasts_S1024_S1x1024 : S1024.ShapeCasts S1x1024
  shapeCasts_S4_S1x4 : S4.ShapeCasts S1x4
  inb_S2000x1024_S2000x1024_0_0 : ∀ a, (![0, 0] : Fin 2 → Nat) a + S2000x1024.size a ≤ S2000x1024.size a
  h_S2000x1024 : 0 < S2000x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  natLt_1_32 : 1 < 32
  broadcasts_S2000x1_S2000x1024 : S2000x1.Broadcasts S2000x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S4x1024_o0_0_S1x1024 : S4x1024.Slices ![0, 0] S1x1024
  reduces_S2000x1024_S2000 : S2000x1024.Reduces [1] S2000
  shapeCasts_S2000_S2000x1 : S2000.ShapeCasts S2000x1
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  concatenates_S2000x1_S2000x1_S2000x1_S2000x1_S2000x4_d1 : Shape.Concatenates [S2000x1, S2000x1, S2000x1, S2000x1] S2000x4 1
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  dot_S2000x1024_S1024x1024_S2000x1024_1_0_0_1_n_n_wf : DotDims.WF S2000x1024 S1024x1024 S2000x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1024.size a ≤ S100000x1024.size a
  hwx0_0 : ∀ i : grid0.Coords, EltTy.bits .f32 = 32 ∨ (Rect.block (s := S100000x1024) S2000x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .i32 = 32 ∨ (Rect.block (s := S100000x1) S2000x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x1024.size a
  hwx0_5 : ∀ i : grid0.Coords, EltTy.bits .f32 = 32 ∨ (Rect.block (s := S4x1024) S4x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4.size a ≤ S1x4.size a
  hwx0_6 : ∀ i : grid0.Coords, EltTy.bits .f32 = 32 ∨ (Rect.block (s := S1x4) S1x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x4.size a ≤ S100000x4.size a
  hwx0_7 : ∀ i : grid0.Coords, EltTy.bits .f32 = 32 ∨ (Rect.block (s := S100000x4) S2000x4.size (cc0_transform_7 i) (hinb0_7 i)).WholeWords (EltTy.packing .f32)

variable [Facts₀]

def dot_S2000x1024_S1024x1024_S2000x1024_1_0_0_1_n_n : DotDims S2000x1024 S1024x1024 S2000x1024 where
  lhsContracting := [1]
  rhsContracting := [0]
  lhsNonContracting := [0]
  rhsNonContracting := [1]
  lhsBatch := []
  rhsBatch := []
  wf := dot_S2000x1024_S1024x1024_S2000x1024_1_0_0_1_n_n_wf

abbrev win0_0 : Pipeline.Window sig grid0 :=
  Pipeline.Window.ofSpec (Memref.whole main_arg0) S2000x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2000x4.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x1024 : Shape := ⟨2, ![100000, 1024]⟩
abbrev S100000 : Shape := ⟨1, ![100000]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S_ : Shape := ⟨0, ![]⟩
abbrev S1x1024 : Shape := ⟨2, ![1, 1024]⟩
abbrev S100000x1 : Shape := ⟨2, ![100000, 1]⟩
abbrev S1x4 : Shape := ⟨2, ![1, 4]⟩
abbrev S100000x4 : Shape := ⟨2, ![100000, 4]⟩
abbrev S100000x4x1 : Shape := ⟨3, ![100000, 4, 1]⟩
abbrev S100000x4x256 : Shape := ⟨3, ![100000, 4, 256]⟩

abbrev nBuf : Space → Nat
  | .hbm => 53
  | .vmem => 0
  | .smem => 0
  | _ => 0

abbrev bufTy : (tb : Table) → Fin (tcTables nBuf tb) → BufTy
  | .hbm, ⟨0, _⟩ => ⟨S100000x1024, .f32⟩
  | .hbm, ⟨1, _⟩ => ⟨S100000, .i32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S100000x1024, .f32⟩
  | .hbm, ⟨8, _⟩ => ⟨S_, .f32⟩
  | .hbm, ⟨9, _⟩ => ⟨S100000x1024, .f32⟩
  | .hbm, ⟨10, _⟩ => ⟨S100000x1024, .f32⟩
  | .hbm, ⟨11, _⟩ => ⟨S100000x1024, .f32⟩
  | .hbm, ⟨12, _⟩ => ⟨S100000x1024, .f32⟩
  | .hbm, ⟨13, _⟩ => ⟨S_, .f32⟩
  | .hbm, ⟨14, _⟩ => ⟨S100000x1024, .f32⟩
  | .hbm, ⟨15, _⟩ => ⟨S100000x1024, .f32⟩
  | .hbm, ⟨16, _⟩ => ⟨S_, .f32⟩
  | .hbm, ⟨17, _⟩ => ⟨S100000x1024, .f32⟩
  | .hbm, ⟨18, _⟩ => ⟨S100000x1024, .f32⟩
  | .hbm, ⟨19, _⟩ => ⟨S100000x1024, .f32⟩
  | .hbm, ⟨20, _⟩ => ⟨S100000x1024, .f32⟩
  | .hbm, ⟨21, _⟩ => ⟨S_, .f32⟩
  | .hbm, ⟨22, _⟩ => ⟨S100000x1024, .f32⟩
  | .hbm, ⟨23, _⟩ => ⟨S100000x1024, .f32⟩
  | .hbm, ⟨24, _⟩ => ⟨S1x1024, .f32⟩
  | .hbm, ⟨25, _⟩ => ⟨S100000x1024, .f32⟩
  | .hbm, ⟨26, _⟩ => ⟨S100000x1024, .f32⟩
  | .hbm, ⟨27, _⟩ => ⟨S100000x1024, .f32⟩
  | .hbm, ⟨28, _⟩ => ⟨S100000x1024, .f32⟩
  | .hbm, ⟨29, _⟩ => ⟨S_, .f32⟩
  | .hbm, ⟨30, _⟩ => ⟨S100000x1024, .f32⟩
  | .hbm, ⟨31, _⟩ => ⟨S100000x1024, .f32⟩
  | .hbm, ⟨32, _⟩ => ⟨S_, .f32⟩
  | .hbm, ⟨33, _⟩ => ⟨S100000x1024, .f32⟩
  | .hbm, ⟨34, _⟩ => ⟨S100000x1024, .f32⟩
  | .hbm, ⟨35, _⟩ => ⟨S100000x1024, .f32⟩
  | .hbm, ⟨36, _⟩ => ⟨S100000x1, .i32⟩
  | .hbm, ⟨37, _⟩ => ⟨S1x4, .i32⟩
  | .hbm, ⟨38, _⟩ => ⟨S100000x4, .i32⟩
  | .hbm, ⟨39, _⟩ => ⟨S100000x4, .i32⟩
  | .hbm, ⟨40, _⟩ => ⟨S100000x4, .i1⟩
  | .hbm, ⟨41, _⟩ => ⟨S100000x4, .f32⟩
  | .hbm, ⟨42, _⟩ => ⟨S100000x4x1, .f32⟩
  | .hbm, ⟨43, _⟩ => ⟨S100000x4x256, .f32⟩
  | .hbm, ⟨44, _⟩ => ⟨S100000x1024, .f32⟩
  | .hbm, ⟨45, _⟩ => ⟨S100000x1024, .f32⟩
  | .hbm, ⟨46, _⟩ => ⟨S100000x4, .f32⟩
  | .hbm, ⟨47, _⟩ => ⟨S_, .f32⟩
  | .hbm, ⟨48, _⟩ => ⟨S100000x4, .f32⟩
  | .hbm, ⟨49, _⟩ => ⟨S100000x4, .f32⟩
  | .hbm, ⟨50, _⟩ => ⟨S1x4, .f32⟩
  | .hbm, ⟨51, _⟩ => ⟨S100000x4, .f32⟩
  | .hbm, ⟨52, _⟩ => ⟨S100000x4, .f32⟩
  | _, _ => ⟨S100000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v10 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_1 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  bcast_S_S100000x1024 : S_.BroadcastsInDim S100000x1024 (![] : Fin 0 → Fin S100000x1024.rank)
  bcast_S1024_S1x1024_1 : S1024.BroadcastsInDim S1x1024 (![1] : Fin 1 → Fin S1x1024.rank)
  bcast_S1x1024_S100000x1024_0_1 : S1x1024.BroadcastsInDim S100000x1024 (![0, 1] : Fin 2 → Fin S100000x1024.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S1x4_S100000x4_0_1 : S1x4.BroadcastsInDim S100000x4 (![0, 1] : Fin 2 → Fin S100000x4.rank)
  bcast_S100000x4_S100000x4x1_0_1 : S100000x4.BroadcastsInDim S100000x4x1 (![0, 1] : Fin 2 → Fin S100000x4x1.rank)
  bcast_S100000x4x1_S100000x4x256_0_1_2 : S100000x4x1.BroadcastsInDim S100000x4x256 (![0, 1, 2] : Fin 3 → Fin S100000x4x256.rank)
  shapeCasts_S100000x4x256_S100000x1024 : S100000x4x256.ShapeCasts S100000x1024
  bcast_S_S100000x4 : S_.BroadcastsInDim S100000x4 (![] : Fin 0 → Fin S100000x4.rank)
  bcast_S4_S1x4_1 : S4.BroadcastsInDim S1x4 (![1] : Fin 1 → Fin S1x4.rank)
  dot_S100000x1024_S1024x1024_S100000x1024_1_0_0_1_n_n_wf : DotDims.WF S100000x1024 S1024x1024 S100000x1024 [1] [0] [0] [1] [] []
  dot_S100000x1024_S1024x4_S100000x4_1_0_0_1_n_n_wf : DotDims.WF S100000x1024 S1024x4 S100000x4 [1] [0] [0] [1] [] []

variable [Facts₀]

def dot_S100000x1024_S1024x1024_S100000x1024_1_0_0_1_n_n : DotDims S100000x1024 S1024x1024 S100000x1024 where
  lhsContracting := [1]
  rhsContracting := [0]
  lhsNonContracting := [0]
  rhsNonContracting := [1]
  lhsBatch := []
  rhsBatch := []
  wf := dot_S100000x1024_S1024x1024_S100000x1024_1_0_0_1_n_n_wf
def dot_S100000x1024_S1024x4_S100000x4_1_0_0_1_n_n : DotDims S100000x1024 S1024x4 S100000x4 where
  lhsContracting := [1]
  rhsContracting := [0]
  lhsNonContracting := [0]
  rhsNonContracting := [1]
  lhsBatch := []
  rhsBatch := []
  wf := dot_S100000x1024_S1024x4_S100000x4_1_0_0_1_n_n_wf

class Facts : Prop extends Facts₀ where

variable [Facts]
-- ==== Proof.Spec.lean ====
/-
  The function both programs compute, entry by entry, on the extended reals.

  A node's 1024 input features pass through two dense layers, each followed by the gate z ↦ z · σ(z) with
  σ(z) = 1 / (1 + e⁻ᶻ); every product with a weight matrix is scaled by one constant c (the pattern of 1/32, the
  reciprocal square root of the layer width 1024), and the second layer adds a bias. The 1024 hidden channels are laid
  out as 4 heads of 256 channels: channel k belongs to head k / 256. A node keeps only the channels of its own head —
  the others are multiplied by zero — and the kept channels are read out by a 1024 × 4 matrix, scaled by c again, plus a
  bias. Every sum is a sum over Fin 1024 in the extended reals; no step needs the summands to be finite.
-/
import Idealize.ShloMosaic.PureOps.Ideal
import Idealize.ShloMosaic.Lib.ValueIdx

noncomputable section

namespace Cert.Spec

open Idealize.ShloMosaic Idealize.ShloMosaic.ValueIdx
open scoped BigOperators

/-- The scale of every matrix product: the f32 pattern of 1/32. It is the same word in both programs and is never
    evaluated. -/
def c : EReal := Ideal.ofBits .f32 0x3D000000#32

/-- The gate z · σ(z). -/
def act (z : EReal) : EReal := z * Ideal.logistic z

/-- The selector of a node's head: 1 on the channels of the head whose number is the node's word, 0 elsewhere (0
    everywhere when the word names no head). -/
def gate (hd : BitVec 32) (k : Fin 1024) : EReal := if hd = BitVec.ofNat 32 (k.val / 256) then 1 else 0

variable (x : (⟨2, ![100000, 1024]⟩ : Shape).Idx → EReal) (hd : (⟨1, ![100000]⟩ : Shape).Idx → BitVec 32)
  (W1 Wm : (⟨2, ![1024, 1024]⟩ : Shape).Idx → EReal) (b : (⟨1, ![1024]⟩ : Shape).Idx → EReal)
  (W2 : (⟨2, ![1024, 4]⟩ : Shape).Idx → EReal) (b2 : (⟨1, ![4]⟩ : Shape).Idx → EReal)

/-- The first hidden layer at node n, channel k. -/
def hid1 (n : Fin 100000) (k : Fin 1024) : EReal := act ((∑ j : Fin 1024, x (ix2 n j) * W1 (ix2 j k)) * c)

/-- The second hidden layer at node n, channel k. -/
def hid2 (n : Fin 100000) (k : Fin 1024) : EReal :=
  act ((∑ j : Fin 1024, hid1 x W1 n j * Wm (ix2 j k)) * c + b (ix1 k))

/-- The readout of node n for output o. -/
def out (n : Fin 100000) (o : Fin 4) : EReal :=
  (∑ k : Fin 1024, (hid2 x W1 Wm b n k * gate (hd (ix1 n)) k) * W2 (ix2 k o)) * c + b2 (ix1 o)

/-- The whole result array. -/
def G : (⟨2, ![100000, 4]⟩ : Shape).Idx → EReal := fun i => out x hd W1 Wm b W2 b2 (i 0) (i 1)

theorem G_apply (n : Fin 100000) (o : Fin 4) : G x hd W1 Wm b W2 b2 (ix2 n o) = out x hd W1 Wm b W2 b2 n o := rfl

end Cert.Spec

end
-- ==== Proof.Words.lean ====
/-
  The integer side of the head selector, one word at a time.

  A channel number k < 1024 is divided by 256 with rounding toward minus infinity, spelt as the truncating quotient
  corrected by one when the signs of dividend and divisor differ and the remainder is not zero. For 0 ≤ k < 1024 and
  the divisor 256 no correction happens and the result is the word of k / 256. The comparison of that word with a
  node's head word, turned into a float, is 1 or 0 — whether the one-bit answer is widened to 32 bits and read signed,
  or read unsigned as it is.
-/
import Idealize.ShloMosaic.PureOps.Ideal
import Idealize.ShloMosaic.Lib.Affine
import Idealize.ShloMosaic.Lib.ValueIdx

noncomputable section

namespace Cert.Words

open Idealize.ShloMosaic

/-- Floor division of a 32-bit word by 256 as the kernel spells it: the truncating quotient, less one when the operands'
    signs differ and the remainder is not zero. -/
def headWord (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 256#32 0#32) : BitVec 32)
          (Scalar.extui (Scalar.cmpi .slt 256#32 0#32) : BitVec 32)))
      (IntOp.cmpi .ne (IntOp.remsi .vector w 256#32) 0#32))
    (IntOp.subi (IntOp.divsi .vector w 256#32) 1#32)
    (IntOp.divsi .vector w 256#32)

/-- On the channel numbers it is the word of k / 256: checked channel by channel. -/
theorem headWord_ofNat : ∀ k : Fin 1024, headWord (BitVec.ofNat 32 k.val) = BitVec.ofNat 32 (k.val / 256) := by
  decide +kernel

/-- A one-bit equality answer read unsigned as a float: 1 when the words are equal, else 0. -/
theorem uitofp_eq (a b : BitVec 32) :
    FloatOps.uitofp (F := Ideal) .f32 (IntOp.cmpi .eq a b) = if a = b then 1 else 0 := by
  by_cases h : a = b
  · rw [if_pos h, IntOp.cmpi_eq.mpr h]
    show (((1#1 : BitVec 1).toNat : ℝ) : EReal) = 1
    norm_num
  · rw [if_neg h, ValueIdx.eq_zero_of_ne_one (mt IntOp.cmpi_eq.mp h)]
    show (((0#1 : BitVec 1).toNat : ℝ) : EReal) = 0
    norm_num

/-- The same answer widened to 32 bits and read signed. -/
theorem sitofp_ext_eq (a b : BitVec 32) :
    FloatOps.sitofp (F := Ideal) .f32 ((IntOp.cmpi .eq a b).setWidth 32) = if a = b then 1 else 0 := by
  by_cases h : a = b
  · rw [if_pos h, IntOp.cmpi_eq.mpr h]
    show (((((1#1 : BitVec 1).setWidth 32).toInt : ℤ) : ℝ) : EReal) = 1
    rw [show ((1#1 : BitVec 1).setWidth 32).toInt = 1 by decide]
    norm_num
  · rw [if_neg h, ValueIdx.eq_zero_of_ne_one (mt IntOp.cmpi_eq.mp h)]
    show (((((0#1 : BitVec 1).setWidth 32).toInt : ℤ) : ℝ) : EReal) = 0
    rw [show ((0#1 : BitVec 1).setWidth 32).toInt = 0 by decide]
    norm_num

end Cert.Words

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KernelBody.lean ====
/-
  One block of 2000 nodes through the kernel's arithmetic, entry by entry.

  From the block's rows of the input, the two weight matrices and the bias row, the hidden block at (p, k) is the two
  dense layers with their gates; a matrix product into the zero accumulator is the sum over the contracted axis, and
  narrowing to sixteen bits changes no exact value. The selector at (p, k) compares the word of k / 256 with the node's
  head word. Output column o is the lane sum of (hidden · selector) against row o of the transposed readout matrix,
  scaled and shifted by the bias: the four columns are computed one at a time and set side by side. Finally, if the
  block's inputs are the corresponding entries of whole arrays, the block's output entry is the specification's.
-/
import proofs.«100250_j20864951124193_2_alg».proof.Proof.Gen.KernelIdeal.Skeleton
import proofs.«100250_j20864951124193_2_alg».proof.Proof.Spec
import proofs.«100250_j20864951124193_2_alg».proof.Proof.Words
import proofs.«100250_j20864951124193_2_alg».proof.Proof.LibPlainDot
import proofs.«100250_j20864951124193_2_alg».proof.Proof.LibKeepdims
import proofs.«100250_j20864951124193_2_alg».proof.Proof.LibRowBroadcasts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable (xb : FVec Ideal S2000x1024 .f32) (w1 wm : FVec Ideal S1024x1024 .bf16) (bm : FVec Ideal S1x1024 .f32)

/-- The first hidden layer of the block's row p at channel k. -/
def bhid1 (p : Fin 2000) (k : Fin 1024) : EReal := Spec.act ((∑ j : Fin 1024, xb (ix2 p j) * w1 (ix2 j k)) * Spec.c)

/-- The second hidden layer of the block's row p at channel k. -/
def bhid2 (p : Fin 2000) (k : Fin 1024) : EReal :=
  Spec.act ((∑ j : Fin 1024, bhid1 xb w1 p j * wm (ix2 j k)) * Spec.c + bm (ix2 (0 : Fin 1) k))

/-- A 2000 × 1024 by 1024 × 1024 product into the zero accumulator, at (p, q): the sum over the contracted axis. -/
theorem mm_apply (l : FVec Ideal S2000x1024 .bf16) (r : FVec Ideal S1024x1024 .bf16) (p : Fin 2000) (q : Fin 1024) :
    matmul dot_S2000x1024_S1024x1024_S2000x1024_1_0_0_1_n_n none l r (constant S2000x1024 .f32 0x00000000#32) (ix2 p q)
      = ∑ k : Fin 1024, l (ix2 p k) * r (ix2 k q) :=
  Cert.Lib.PlainDot.matmul_zero_apply dot_S2000x1024_S1024x1024_S2000x1024_1_0_0_1_n_n_wf none l r p q

/-- σ applied to a vector is σ at each entry. -/
theorem logistic_apply {s : Shape} {φ : FTy} (v : FVec Ideal s φ) (i : s.Idx) : logistic v i = Ideal.logistic (v i) := rfl

/-- The hidden block the kernel computes is the two gated layers. -/
theorem pay2_apply (p : Fin 2000) (k : Fin 1024) :
    k0_pay2 (F := Ideal) xb w1 wm bm (ix2 p k) = bhid2 xb w1 wm bm p k := by
  unfold k0_pay2
  simp only [mulf_apply, addf_apply, logistic_apply, broadcast_apply, truncf_apply, shapeCast_self, mm_apply,
    Cert.Lib.Rows.bcastRow_apply]
  rfl

variable (h2 : FVec Ideal S2000x1024 .f32) (hd : IVec S2000x1 32) (w2t : FVec Ideal S4x1024 .f32) (b2 : FVec Ideal S1x4 .f32)

/-- The selector as the kernel computes it — the floor quotient of the channel number by 256, compared with the node's
    head word broadcast along the row, widened and read as a float — is the specification's selector. -/
theorem gate_apply (p : Fin 2000) (k : Fin 1024) :
    (sitofp .f32 (extui 32 (cmpi .eq
      (select (andi k0_pay5 (cmpi .ne (remsi (iota .tc S2000x1024 32 [1] iota_S2000x1024_d1_w32) (broadcast S2000x1024 256#32)) (broadcast S2000x1024 0#32)))
        (subi k0_pay4 (broadcast S2000x1024 1#32)) k0_pay4)
      (broadcastTo S2000x1024 hd broadcasts_S2000x1_S2000x1024)) natLt_1_32) : FVec Ideal S2000x1024 .f32) (ix2 p k)
      = Spec.gate (hd (ix2 p (0 : Fin 1))) k := by
  show FloatOps.sitofp (F := Ideal) .f32 ((IntOp.cmpi .eq (Words.headWord (iota .tc S2000x1024 32 [1] iota_S2000x1024_d1_w32 (ix2 p k)))
    (broadcastTo S2000x1024 hd broadcasts_S2000x1_S2000x1024 (ix2 p k))).setWidth 32) = _
  rw [Words.sitofp_ext_eq, iota_single_apply, Cert.Lib.Keepdims.bcastCol_apply]
  show (if Words.headWord (BitVec.ofNat 32 k.val) = hd (ix2 p 0) then (1 : EReal) else 0) = _
  rw [Words.headWord_ofNat]
  unfold Spec.gate
  exact if_congr eq_comm rfl rfl

/-- The index a lane sum reads: row p, lane k. -/
theorem lift_eq (p : Fin 2000) (k : Fin 1024) :
    reduces_S2000x1024_S2000.lift (ix1 p) k = ix2 p k := funext fun a => by
  match a with
  | ⟨0, _⟩ => rfl
  | ⟨1, _⟩ => rfl

/-- One output column before scaling: the lane sum of a 2000 × 1024 block against row r of a 4 × 1024 matrix broadcast
    down the rows, kept as a column. -/
theorem piece_apply (mh : FVec Ideal S2000x1024 .f32) (w : FVec Ideal S4x1024 .f32) (r : Nat)
    (hs : S4x1024.Slices ![r, 0] S1x1024) (hφ : FKind.Formats .f32)
    (hacc : (0x00000000#32 : BitVec 32) = 0x00000000#32) (p : Fin 2000) (u : Fin 1) (ro : Fin 4) (hro : ro.val = r) :
    shapeCast S2000x1 (multiReduction .add [1] S2000
        (mulf mh (broadcastTo S2000x1024 (extractStridedSlice S1x1024 ![r, 0] w hs) broadcasts_S1x1024_S2000x1024))
        0x00000000#32 reduces_S2000x1024_S2000 hφ hacc) shapeCasts_S2000_S2000x1 (ix2 p u)
      = ∑ k : Fin 1024, mh (ix2 p k) * w (ix2 ro k) := by
  rw [Cert.Lib.Keepdims.col_apply]
  refine (Ideal.multiReduction_add_single _ 0x00000000#32 reduces_S2000x1024_S2000 hφ hacc (ix1 p)).trans ?_
  refine Finset.sum_congr rfl fun (k : Fin 1024) _ => ?_
  rw [lift_eq, mulf_apply, Cert.Lib.Rows.bcastRow_apply, slice2_axis0_apply r w hs (0 : Fin 1) k ro (by rw [hro]; rfl)]

section Cat
variable (a0 a1 a2 a3 : FVec Ideal S2000x1 .f32)
  (h : Shape.Concatenates ([(⟨S2000x1, a0⟩ : (s : Shape) × (s.Idx → Ideal .f32)), ⟨S2000x1, a1⟩, ⟨S2000x1, a2⟩, ⟨S2000x1, a3⟩].map (·.1)) S2000x4 1)
  (p : Fin 2000)

/-! Four columns set side by side: column o of the result is the o-th piece. -/

theorem cat4_0 : concatenate S2000x4 1 [⟨S2000x1, a0⟩, ⟨S2000x1, a1⟩, ⟨S2000x1, a2⟩, ⟨S2000x1, a3⟩] h (ix2 p (0 : Fin 4))
    = a0 (ix2 p (0 : Fin 1)) :=
  concatenate_apply_piece 1 _ h _ 0 (by decide : (0 : Nat) < 4) S2000x1 a0 rfl rfl 0 rfl (ix2 p (0 : Fin 1))
    (fun b hb => by match b with | ⟨0, _⟩ => rfl | ⟨1, _⟩ => exact absurd rfl hb) rfl

theorem cat4_1 : concatenate S2000x4 1 [⟨S2000x1, a0⟩, ⟨S2000x1, a1⟩, ⟨S2000x1, a2⟩, ⟨S2000x1, a3⟩] h (ix2 p (1 : Fin 4))
    = a1 (ix2 p (0 : Fin 1)) :=
  concatenate_apply_piece 1 _ h _ 1 (by decide : (1 : Nat) < 4) S2000x1 a1 rfl rfl 1 rfl (ix2 p (0 : Fin 1))
    (fun b hb => by match b with | ⟨0, _⟩ => rfl | ⟨1, _⟩ => exact absurd rfl hb) rfl

theorem cat4_2 : concatenate S2000x4 1 [⟨S2000x1, a0⟩, ⟨S2000x1, a1⟩, ⟨S2000x1, a2⟩, ⟨S2000x1, a3⟩] h (ix2 p (2 : Fin 4))
    = a2 (ix2 p (0 : Fin 1)) :=
  concatenate_apply_piece 1 _ h _ 2 (by decide : (2 : Nat) < 4) S2000x1 a2 rfl rfl 2 rfl (ix2 p (0 : Fin 1))
    (fun b hb => by match b with | ⟨0, _⟩ => rfl | ⟨1, _⟩ => exact absurd rfl hb) rfl

theorem cat4_3 : concatenate S2000x4 1 [⟨S2000x1, a0⟩, ⟨S2000x1, a1⟩, ⟨S2000x1, a2⟩, ⟨S2000x1, a3⟩] h (ix2 p (3 : Fin 4))
    = a3 (ix2 p (0 : Fin 1)) :=
  concatenate_apply_piece 1 _ h _ 3 (by decide : (3 : Nat) < 4) S2000x1 a3 rfl rfl 3 rfl (ix2 p (0 : Fin 1))
    (fun b hb => by match b with | ⟨0, _⟩ => rfl | ⟨1, _⟩ => exact absurd rfl hb) rfl

end Cat

/-! The kernel's output block, one column at a time. -/

theorem pay1_col0 (p : Fin 2000) :
    k0_pay1 (F := Ideal) h2 hd (iota .tc S2000x1024 32 [1] iota_S2000x1024_d1_w32) 256#32 k0_pay4 k0_pay5 w2t b2 (ix2 p (0 : Fin 4))
      = (∑ k : Fin 1024, (h2 (ix2 p k) * Spec.gate (hd (ix2 p (0 : Fin 1))) k) * w2t (ix2 (0 : Fin 4) k)) * Spec.c
        + b2 (ix2 (0 : Fin 1) (0 : Fin 4)) := by
  unfold k0_pay1
  simp only [mulf_apply, addf_apply, broadcast_apply, shapeCast_self, Cert.Lib.Rows.bcastRow_apply]
  rw [cat4_0, piece_apply (r := 0) (ro := 0) (hro := rfl)]
  refine congrArg (fun z : EReal => z * Spec.c + b2 (ix2 (0 : Fin 1) (0 : Fin 4))) (Finset.sum_congr rfl fun k _ => ?_)
  rw [mulf_apply, gate_apply]

theorem pay1_col1 (p : Fin 2000) :
    k0_pay1 (F := Ideal) h2 hd (iota .tc S2000x1024 32 [1] iota_S2000x1024_d1_w32) 256#32 k0_pay4 k0_pay5 w2t b2 (ix2 p (1 : Fin 4))
      = (∑ k : Fin 1024, (h2 (ix2 p k) * Spec.gate (hd (ix2 p (0 : Fin 1))) k) * w2t (ix2 (1 : Fin 4) k)) * Spec.c
        + b2 (ix2 (0 : Fin 1) (1 : Fin 4)) := by
  unfold k0_pay1
  simp only [mulf_apply, addf_apply, broadcast_apply, shapeCast_self, Cert.Lib.Rows.bcastRow_apply]
  rw [cat4_1, piece_apply (r := 1) (ro := 1) (hro := rfl)]
  refine congrArg (fun z : EReal => z * Spec.c + b2 (ix2 (0 : Fin 1) (1 : Fin 4))) (Finset.sum_congr rfl fun k _ => ?_)
  rw [mulf_apply, gate_apply]

theorem pay1_col2 (p : Fin 2000) :
    k0_pay1 (F := Ideal) h2 hd (iota .tc S2000x1024 32 [1] iota_S2000x1024_d1_w32) 256#32 k0_pay4 k0_pay5 w2t b2 (ix2 p (2 : Fin 4))
      = (∑ k : Fin 1024, (h2 (ix2 p k) * Spec.gate (hd (ix2 p (0 : Fin 1))) k) * w2t (ix2 (2 : Fin 4) k)) * Spec.c
        + b2 (ix2 (0 : Fin 1) (2 : Fin 4)) := by
  unfold k0_pay1
  simp only [mulf_apply, addf_apply, broadcast_apply, shapeCast_self, Cert.Lib.Rows.bcastRow_apply]
  rw [cat4_2, piece_apply (r := 2) (ro := 2) (hro := rfl)]
  refine congrArg (fun z : EReal => z * Spec.c + b2 (ix2 (0 : Fin 1) (2 : Fin 4))) (Finset.sum_congr rfl fun k _ => ?_)
  rw [mulf_apply, gate_apply]

theorem pay1_col3 (p : Fin 2000) :
    k0_pay1 (F := Ideal) h2 hd (iota .tc S2000x1024 32 [1] iota_S2000x1024_d1_w32) 256#32 k0_pay4 k0_pay5 w2t b2 (ix2 p (3 : Fin 4))
      = (∑ k : Fin 1024, (h2 (ix2 p k) * Spec.gate (hd (ix2 p (0 : Fin 1))) k) * w2t (ix2 (3 : Fin 4) k)) * Spec.c
        + b2 (ix2 (0 : Fin 1) (3 : Fin 4)) := by
  unfold k0_pay1
  simp only [mulf_apply, addf_apply, broadcast_apply, shapeCast_self, Cert.Lib.Rows.bcastRow_apply]
  rw [cat4_3, piece_apply (r := 3) (ro := 3) (hro := rfl)]
  refine congrArg (fun z : EReal => z * Spec.c + b2 (ix2 (0 : Fin 1) (3 : Fin 4))) (Finset.sum_congr rfl fun k _ => ?_)
  rw [mulf_apply, gate_apply]

/-- The kernel's output block at (p, o). -/
theorem pay1_apply (p : Fin 2000) (o : Fin 4) :
    k0_pay1 (F := Ideal) h2 hd (iota .tc S2000x1024 32 [1] iota_S2000x1024_d1_w32) 256#32 k0_pay4 k0_pay5 w2t b2 (ix2 p o)
      = (∑ k : Fin 1024, (h2 (ix2 p k) * Spec.gate (hd (ix2 p (0 : Fin 1))) k) * w2t (ix2 o k)) * Spec.c
        + b2 (ix2 (0 : Fin 1) o) := by
  match o with
  | ⟨0, _⟩ => exact pay1_col0 h2 hd w2t b2 p
  | ⟨1, _⟩ => exact pay1_col1 h2 hd w2t b2 p
  | ⟨2, _⟩ => exact pay1_col2 h2 hd w2t b2 p
  | ⟨3, _⟩ => exact pay1_col3 h2 hd w2t b2 p

/-- If the block's inputs are the corresponding entries of the whole arrays — row p of the block is node n, the weight
    and bias blocks are the whole weight and bias arrays, the transposed readout block is the readout matrix with its
    axes swapped — then the block's output at (p, o) is the specification at (n, o). -/
theorem block_out
    (x : (⟨2, ![100000, 1024]⟩ : Shape).Idx → EReal) (hdA : (⟨1, ![100000]⟩ : Shape).Idx → BitVec 32)
    (W1 Wm : (⟨2, ![1024, 1024]⟩ : Shape).Idx → EReal) (b : (⟨1, ![1024]⟩ : Shape).Idx → EReal)
    (W2 : (⟨2, ![1024, 4]⟩ : Shape).Idx → EReal) (b2A : (⟨1, ![4]⟩ : Shape).Idx → EReal)
    (n : Fin 100000) (p : Fin 2000) (o : Fin 4)
    (hx : ∀ j : Fin 1024, xb (ix2 p j) = x (ix2 n j))
    (hw1 : ∀ j k : Fin 1024, w1 (ix2 j k) = W1 (ix2 j k))
    (hwm : ∀ j k : Fin 1024, wm (ix2 j k) = Wm (ix2 j k))
    (hbm : ∀ k : Fin 1024, bm (ix2 (0 : Fin 1) k) = b (ix1 k))
    (hhd : hd (ix2 p (0 : Fin 1)) = hdA (ix1 n))
    (hw2 : ∀ k : Fin 1024, w2t (ix2 o k) = W2 (ix2 k o))
    (hb2 : b2 (ix2 (0 : Fin 1) o) = b2A (ix1 o)) :
    k0_pay1 (F := Ideal) (k0_pay2 xb w1 wm bm) (k0_pay3 (F := Ideal) hd) (iota .tc S2000x1024 32 [1] iota_S2000x1024_d1_w32) 256#32
        k0_pay4 k0_pay5 w2t b2 (ix2 p o)
      = Spec.out x hdA W1 Wm b W2 b2A n o := by
  rw [pay1_apply]
  unfold k0_pay3
  simp only [shapeCast_self, pay2_apply, bhid2, bhid1, hx, hw1, hwm, hbm, hhd, hw2, hb2]
  rfl

end Cert.KernelIdeal.Body

end
-- ==== Proof.HostPrefix.lean ====
/-
  What the kernel's windows find in their arrays.

  Before the kernel runs, the head words are viewed as a 100000 × 1 column, the two square weight matrices are narrowed
  to sixteen-bit floats, the readout matrix is transposed to 4 × 1024, and the two bias vectors are viewed as one-row
  matrices. Each of these arrays is that one operation of an argument array as launched.
-/
import proofs.«100250_j20864951124193_2_alg».proof.Proof.Gen.KernelIdeal.Frame
import Idealize.ShloMosaic.Lib.StableHlo.Run
import Idealize.ShloMosaic.Lib.Pipeline.Value

noncomputable section

namespace Cert.KernelIdeal.Prefix

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The head words as a column. -/
theorem V_main_v0 (c : Dev nD) :
    (V m c main_v0 : (⟨S100000x1, .i32⟩ : BufTy).Contents (Elt F))
      = shapeCast S100000x1 (m ((c : Thread nD τ).loc main_arg1)) shapeCasts_S100000_S100000x1 := by
  dsimp only [Gen.V, Gen.hostOps0]
  after_results
  rfl

/-- The first weight matrix, narrowed. -/
theorem V_main_v1 (c : Dev nD) :
    (V m c main_v1 : (⟨S1024x1024, .bf16⟩ : BufTy).Contents (Elt F))
      = truncf .bf16 (m ((c : Thread nD τ).loc main_arg2) : (⟨S1024x1024, .f32⟩ : BufTy).Contents (Elt F)) bitsLt_bf16_f32 := by
  dsimp only [Gen.V, Gen.hostOps0]
  after_results

/-- The second weight matrix, narrowed. -/
theorem V_main_v2 (c : Dev nD) :
    (V m c main_v2 : (⟨S1024x1024, .bf16⟩ : BufTy).Contents (Elt F))
      = truncf .bf16 (m ((c : Thread nD τ).loc main_arg3) : (⟨S1024x1024, .f32⟩ : BufTy).Contents (Elt F)) bitsLt_bf16_f32 := by
  dsimp only [Gen.V, Gen.hostOps0]
  after_results

/-- The readout matrix, transposed. -/
theorem V_main_v3 (c : Dev nD) :
    (V m c main_v3 : (⟨S4x1024, .f32⟩ : BufTy).Contents (Elt F))
      = transpose S4x1024 [1, 0] (m ((c : Thread nD τ).loc main_arg5) : (⟨S1024x4, .f32⟩ : BufTy).Contents (Elt F)) transposes_S1024x4_S4x1024_1_0 := by
  dsimp only [Gen.V, Gen.hostOps0]
  after_results

/-- The hidden bias as a row. -/
theorem V_main_v4 (c : Dev nD) :
    (V m c main_v4 : (⟨S1x1024, .f32⟩ : BufTy).Contents (Elt F))
      = shapeCast S1x1024 (m ((c : Thread nD τ).loc main_arg4)) shapeCasts_S1024_S1x1024 := by
  dsimp only [Gen.V, Gen.hostOps0]
  after_results
  rfl

/-- The readout bias as a row. -/
theorem V_main_v5 (c : Dev nD) :
    (V m c main_v5 : (⟨S1x4, .f32⟩ : BufTy).Contents (Elt F))
      = shapeCast S1x4 (m ((c : Thread nD τ).loc main_arg6)) shapeCasts_S4_S1x4 := by
  dsimp only [Gen.V, Gen.hostOps0]
  after_results
  rfl

end Cert.KernelIdeal.Prefix

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KernelValue.lean ====
/-
  From blocks to the whole result array.

  Grid point t works on nodes 2000·t … 2000·t + 1999: its block of the input is those rows, its block of the head-word
  column those entries; the weights, the biases and the transposed readout matrix are whole at every point. So what
  point t writes back is block t of the specification (the body's arithmetic, block by block), the 50 blocks cover the
  100000 rows (row r lies in block r / 2000), and the array after the run is the specification.
-/
import proofs.«100250_j20864951124193_2_alg».proof.Proof.Gen.KernelIdeal.Value
import proofs.«100250_j20864951124193_2_alg».proof.Proof.KernelBody
import proofs.«100250_j20864951124193_2_alg».proof.Proof.HostPrefix
import proofs.«100250_j20864951124193_2_alg».proof.Proof.LibMergeRows
import proofs.«100250_j20864951124193_2_alg».proof.Proof.LibKeepdims
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at grid point t: the input rows, the head-word column and the output move with t;
    every other window stays at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The result: the specification of the seven argument arrays as launched. -/
def result (c : Dev nD) : Buf (Elt Ideal) ((c : Thread nD τ).loc main_v6) :=
  Spec.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## Each window's block at point t, read at an entry -/

/-- Row p of the input block is node 2000·t + p. -/
theorem blk0_apply (c : Dev nD) (t : Fin cfg0.N) (p : Fin 2000) (j : Fin 1024) (n : Fin 100000)
    (hn : n.val = 2000 * t.val + p.val) :
    (iblk m c 0 t : Vec Ideal S2000x1024 .f32) (ix2 p j)
      = (m ((c : Thread nD τ).loc main_arg0) : S100000x1024.Idx → Elt Ideal .f32) (ix2 n j) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2000 + 1 * p.val = n.val; rw [e0, hn]; omega
  | ⟨1, _⟩ => show win0_0.index t (1 : Fin 2) * 1024 + 1 * j.val = j.val; rw [e1]; omega

/-- Entry p of the head-word block is node 2000·t + p's head word. -/
theorem blk1_apply (c : Dev nD) (t : Fin cfg0.N) (p : Fin 2000) (n : Fin 100000)
    (hn : n.val = 2000 * t.val + p.val) :
    (iblk m c 1 t : Vec Ideal S2000x1 .i32) (ix2 p (0 : Fin 1))
      = (m ((c : Thread nD τ).loc main_arg1) : S100000.Idx → Elt Ideal .i32) (ix1 n) := by
  obtain ⟨-, -, e0, e1, -⟩ := idx_facts t
  unfold iblk
  rw [View.read_apply]
  show V m c main_v0 _ = _
  rw [Prefix.V_main_v0 m c]
  have he : ((cfg0.win 1).blk t).view.emb (ix2 p (0 : Fin 1)) = ix2 n (0 : Fin 1) := funext fun a => Fin.ext (by
    match a with
    | ⟨0, _⟩ => show win0_1.index t (0 : Fin 2) * 2000 + 1 * p.val = n.val; rw [e0, hn]; omega
    | ⟨1, _⟩ => show win0_1.index t (1 : Fin 2) * 1 + 1 * 0 = 0; rw [e1])
  rw [he, Cert.Lib.Keepdims.col_apply]

/-- The first weight block is the whole first weight matrix. -/
theorem blk2_apply (c : Dev nD) (t : Fin cfg0.N) (j k : Fin 1024) :
    (iblk m c 2 t : Vec Ideal S1024x1024 .bf16) (ix2 j k)
      = (m ((c : Thread nD τ).loc main_arg2) : S1024x1024.Idx → Elt Ideal .f32) (ix2 j k) := by
  obtain ⟨-, -, -, -, e0, e1, -⟩ := idx_facts t
  unfold iblk
  rw [View.read_apply]
  show V m c main_v1 _ = _
  rw [Prefix.V_main_v1 m c, truncf_apply]
  refine congrArg _ (funext fun a => Fin.ext ?_)
  match a with
  | ⟨0, _⟩ => show win0_2.index t (0 : Fin 2) * 1024 + 1 * j.val = j.val; rw [e0]; omega
  | ⟨1, _⟩ => show win0_2.index t (1 : Fin 2) * 1024 + 1 * k.val = k.val; rw [e1]; omega

/-- The second weight block is the whole second weight matrix. -/
theorem blk3_apply (c : Dev nD) (t : Fin cfg0.N) (j k : Fin 1024) :
    (iblk m c 3 t : Vec Ideal S1024x1024 .bf16) (ix2 j k)
      = (m ((c : Thread nD τ).loc main_arg3) : S1024x1024.Idx → Elt Ideal .f32) (ix2 j k) := by
  obtain ⟨-, -, -, -, -, -, e0, e1, -⟩ := idx_facts t
  unfold iblk
  rw [View.read_apply]
  show V m c main_v2 _ = _
  rw [Prefix.V_main_v2 m c, truncf_apply]
  refine congrArg _ (funext fun a => Fin.ext ?_)
  match a with
  | ⟨0, _⟩ => show win0_3.index t (0 : Fin 2) * 1024 + 1 * j.val = j.val; rw [e0]; omega
  | ⟨1, _⟩ => show win0_3.index t (1 : Fin 2) * 1024 + 1 * k.val = k.val; rw [e1]; omega

/-- The hidden-bias block is the bias vector as a row. -/
theorem blk4_apply (c : Dev nD) (t : Fin cfg0.N) (k : Fin 1024) :
    (iblk m c 4 t : Vec Ideal S1x1024 .f32) (ix2 (0 : Fin 1) k)
      = (m ((c : Thread nD τ).loc main_arg4) : S1024.Idx → Elt Ideal .f32) (ix1 k) := by
  obtain ⟨-, -, -, -, -, -, -, -, e0, e1, -⟩ := idx_facts t
  unfold iblk
  rw [View.read_apply]
  show V m c main_v4 _ = _
  rw [Prefix.V_main_v4 m c]
  have he : ((cfg0.win 4).blk t).view.emb (ix2 (0 : Fin 1) k) = ix2 (0 : Fin 1) k := funext fun a => Fin.ext (by
    match a with
    | ⟨0, _⟩ => show win0_4.index t (0 : Fin 2) * 1 + 1 * 0 = 0; rw [e0]
    | ⟨1, _⟩ => show win0_4.index t (1 : Fin 2) * 1024 + 1 * k.val = k.val; rw [e1]; omega)
  rw [he, Cert.Lib.MergeRows.row_apply]

/-- The transposed readout block at (o, k) is the readout matrix at (k, o). -/
theorem blk5_apply (c : Dev nD) (t : Fin cfg0.N) (o : Fin 4) (k : Fin 1024) :
    (iblk m c 5 t : Vec Ideal S4x1024 .f32) (ix2 o k)
      = (m ((c : Thread nD τ).loc main_arg5) : S1024x4.Idx → Elt Ideal .f32) (ix2 k o) := by
  obtain ⟨-, -, -, -, -, -, -, -, -, -, e0, e1, -⟩ := idx_facts t
  unfold iblk
  rw [View.read_apply]
  show V m c main_v3 _ = _
  rw [Prefix.V_main_v3 m c]
  have he : ((cfg0.win 5).blk t).view.emb (ix2 o k) = ix2 o k := funext fun a => Fin.ext (by
    match a with
    | ⟨0, _⟩ => show win0_5.index t (0 : Fin 2) * 4 + 1 * o.val = o.val; rw [e0]; omega
    | ⟨1, _⟩ => show win0_5.index t (1 : Fin 2) * 1024 + 1 * k.val = k.val; rw [e1]; omega)
  rw [he, Cert.Lib.MergeRows.transpose_apply]

/-- The readout-bias block is the bias vector as a row. -/
theorem blk6_apply (c : Dev nD) (t : Fin cfg0.N) (o : Fin 4) :
    (iblk m c 6 t : Vec Ideal S1x4 .f32) (ix2 (0 : Fin 1) o)
      = (m ((c : Thread nD τ).loc main_arg6) : S4.Idx → Elt Ideal .f32) (ix1 o) := by
  obtain ⟨-, -, -, -, -, -, -, -, -, -, -, -, e0, e1, -⟩ := idx_facts t
  unfold iblk
  rw [View.read_apply]
  show V m c main_v5 _ = _
  rw [Prefix.V_main_v5 m c]
  have he : ((cfg0.win 6).blk t).view.emb (ix2 (0 : Fin 1) o) = ix2 (0 : Fin 1) o := funext fun a => Fin.ext (by
    match a with
    | ⟨0, _⟩ => show win0_6.index t (0 : Fin 2) * 1 + 1 * 0 = 0; rw [e0]
    | ⟨1, _⟩ => show win0_6.index t (1 : Fin 2) * 4 + 1 * o.val = o.val; rw [e1]; omega)
  rw [he, Cert.Lib.MergeRows.row_apply]

/-! ## What a point writes back, the cover, the array after the run -/

/-- Point t writes back block t of the specification. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S2000x1024) hz, View.ld_unit_zero (S := S1024x1024) hz,
    View.ld_unit_zero (S := S1x1024) hz, View.ld_unit_zero (S := S2000x1) hz, View.ld_unit_zero (S := S4x1024) hz,
    View.ld_unit_zero (S := S1x4) hz]
  have ht : t.val < 50 := lt_of_lt_of_eq t.isLt N_0
  obtain ⟨-, -, -, -, -, -, -, -, -, -, -, -, -, -, e0, e1⟩ := idx_facts t
  funext j
  obtain ⟨p, o, rfl⟩ : ∃ (p : Fin 2000) (o : Fin 4), j = ix2 p o := ⟨j 0, j 1, eq_ix2 j⟩
  have hp := p.isLt
  have hn : 2000 * t.val + p.val < 100000 := by omega
  have he : ((cfg0.win 7).blk t).view.emb (ix2 p o) = ix2 (⟨2000 * t.val + p.val, hn⟩ : Fin 100000) o :=
    funext fun a => Fin.ext (by
      match a with
      | ⟨0, _⟩ => show win0_7.index t (0 : Fin 2) * 2000 + 1 * p.val = 2000 * t.val + p.val; rw [e0]; omega
      | ⟨1, _⟩ => show win0_7.index t (1 : Fin 2) * 4 + 1 * o.val = o.val; rw [e1]; omega)
  show k0_pay1 (F := Ideal) (k0_pay2 (iblk m c 0 t) (iblk m c 2 t) (iblk m c 3 t) (iblk m c 4 t)) (k0_pay3 (F := Ideal) (iblk m c 1 t))
      (iota .tc S2000x1024 32 [1] iota_S2000x1024_d1_w32) 256#32 k0_pay4 k0_pay5 (iblk m c 5 t) (iblk m c 6 t) (ix2 p o)
    = result m c (((cfg0.win 7).blk t).view.emb (ix2 p o))
  rw [he]
  unfold result
  rw [Spec.G_apply]
  exact Body.block_out (xb := iblk m c 0 t) (w1 := iblk m c 2 t) (wm := iblk m c 3 t) (bm := iblk m c 4 t)
    (hd := iblk m c 1 t) (w2t := iblk m c 5 t) (b2 := iblk m c 6 t) (n := ⟨2000 * t.val + p.val, hn⟩) (p := p) (o := o)
    (hx := fun j => blk0_apply m c t p j ⟨2000 * t.val + p.val, hn⟩ rfl) (hw1 := blk2_apply m c t) (hwm := blk3_apply m c t)
    (hbm := blk4_apply m c t) (hhd := blk1_apply m c t p ⟨2000 * t.val + p.val, hn⟩ rfl) (hw2 := blk5_apply m c t o)
    (hb2 := blk6_apply m c t o)

/-- An index of the result array is in point t's block iff each coordinate is in the block's range on its axis. -/
theorem mem_blk (t : Fin cfg0.N) (i : S100000x4.Idx) :
    i ∈ ((cfg0.win 7).blk t).view.set ↔ ∀ a : Fin 2, win0_7.index t a * S2000x4.size a ≤ (i a).val
      ∧ (i a).val < win0_7.index t a * S2000x4.size a + S2000x4.size a := by
  show i ∈ ((View.whole main_v6).slice (win0_7.rect t)).set ↔ _
  rw [View.set_slice_whole, Rect.mem_set_unit]
  exact Iff.rfl

/-- Row r of the result lies in the block of point r / 2000. -/
theorem cover (i : S100000x4.Idx) :
    ∃ t : Fin cfg0.N, (cfg0.win 7).flush t = true ∧ i ∈ ((cfg0.win 7).blk t).view.set := by
  have hi0 : (i 0).val < 100000 := (i 0).isLt
  have hi1 : (i 1).val < 4 := (i 1).isLt
  have hN : cfg0.N = 50 := N_0
  have hq : (i 0).val / 2000 < cfg0.N := by rw [hN]; omega
  refine ⟨⟨(i 0).val / 2000, hq⟩, flush0_7 _, ?_⟩
  rw [mem_blk]
  obtain ⟨-, -, -, -, -, -, -, -, -, -, -, -, -, -, e0, e1⟩ := idx_facts ⟨(i 0).val / 2000, hq⟩
  intro a
  match a with
  | ⟨0, _⟩ =>
    show win0_7.index ⟨(i 0).val / 2000, hq⟩ (0 : Fin 2) * 2000 ≤ (i 0).val
      ∧ (i 0).val < win0_7.index ⟨(i 0).val / 2000, hq⟩ (0 : Fin 2) * 2000 + 2000
    rw [e0]
    show (i 0).val / 2000 * 2000 ≤ (i 0).val ∧ (i 0).val < (i 0).val / 2000 * 2000 + 2000
    omega
  | ⟨1, _⟩ =>
    show win0_7.index ⟨(i 0).val / 2000, hq⟩ (1 : Fin 2) * 4 ≤ (i 1).val
      ∧ (i 1).val < win0_7.index ⟨(i 0).val / 2000, hq⟩ (1 : Fin 2) * 4 + 4
    rw [e1]
    omega

/-- The result array after the run is the specification. -/
theorem final (c : Dev nD) : (dats m 0 c).arrAt 7 cfg0.N = result m c :=
  (dats m 0 c).arrAt_eq_of_cover 7 (result m c) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefIsSpec.lean ====
/-
  The reference computes the specification.

  Stage by stage, at an index: the first product scaled is the first layer's pre-activation; the host's own spelling of the
  gate, z · (1 / (1 + e⁻ᶻ)) with the quotient and the exponential taken by the host's operations, is z · σ(z) on every
  extended real; the one-hot rows of the head words, repeated 256 times along a new last axis and flattened to 1024
  channels, read at channel k the comparison of the node's head word with the word of k / 256; and the last product,
  scaled, plus the bias row is the readout.
-/
import proofs.«100250_j20864951124193_2_alg».proof.Proof.Gen.ReferenceIdeal.Read
import proofs.«100250_j20864951124193_2_alg».proof.Proof.Spec
import proofs.«100250_j20864951124193_2_alg».proof.Proof.Words
import Idealize.ShloMosaic.Lib.IdealHost

noncomputable section

namespace Cert.RefIsSpec

open Cert.ReferenceIdeal Cert.ReferenceIdeal.Read Idealize.ShloMosaic Idealize.ShloMosaic.ValueIdx
open scoped BigOperators

variable (x0 : (⟨S100000x1024, .f32⟩ : BufTy).Contents (Elt Ideal)) (x1 : (⟨S100000, .i32⟩ : BufTy).Contents (Elt Ideal))
  (x2 x3 : (⟨S1024x1024, .f32⟩ : BufTy).Contents (Elt Ideal)) (x4 : (⟨S1024, .f32⟩ : BufTy).Contents (Elt Ideal))
  (x5 : (⟨S1024x4, .f32⟩ : BufTy).Contents (Elt Ideal)) (x6 : (⟨S4, .f32⟩ : BufTy).Contents (Elt Ideal))

/-- The host's gate is the specification's: the pattern 1.0 is one, the host's quotient and exponential are the
    exact ones, and σ is by definition 1 / (1 + e⁻ᶻ). -/
theorem host_gate (z : EReal) :
    FloatOps.mulf (F := Ideal) (φ := .f32) z
      (FloatOps.hostDivf (FloatOps.ofBits .f32 0x3F800000#32)
        (FloatOps.addf (FloatOps.ofBits .f32 0x3F800000#32) (FloatOps.hostUnary .exp (FloatOps.hostNegf z))))
      = Spec.act z := by
  show z * Ideal.div (Ideal.ofBits .f32 0x3F800000#32) (Ideal.ofBits .f32 0x3F800000#32 + Ideal.exp (-z)) = z * Ideal.logistic z
  rw [Ideal.ofBits_one_f32]
  rfl

/-- The first layer before its gate. -/
theorem v2_apply (n : Fin 100000) (k : Fin 1024) :
    val_main_v2 (F := Ideal) x0 x2 (ix2 n k) = (∑ j : Fin 1024, x0 (ix2 n j) * x2 (ix2 j k)) * Spec.c := by
  rw [val_main_v2_apply, val_main_v0_apply, val_main_v1_apply, val_main_cst_apply]
  have el : ∀ j : Fin 1024, lidx_main_v0 (ix2 n k) j = ix2 n j := fun j => funext fun a => by
    match a with
    | ⟨0, _⟩ => rfl
    | ⟨1, _⟩ => rfl
  have er : ∀ j : Fin 1024, ridx_main_v0 (ix2 n k) j = ix2 j k := fun j => funext fun a => by
    match a with
    | ⟨0, _⟩ => rfl
    | ⟨1, _⟩ => rfl
  simp only [el, er]
  rfl

/-- The first hidden layer. -/
theorem v3_apply (n : Fin 100000) (k : Fin 1024) :
    val_main_v3 (F := Ideal) x0 x2 (ix2 n k) = Spec.hid1 x0 x2 n k := by
  rw [val_main_v3_apply, val_main_call0_v5_apply, val_main_call0_v4_apply, val_main_call0_cst_0_apply,
    val_main_call0_v3_apply, val_main_call0_v2_apply, val_main_call0_cst_apply, val_main_call0_v1_apply,
    val_main_call0_v0_apply, host_gate, v2_apply]
  rfl

/-- The second layer before its gate. -/
theorem v9_apply (n : Fin 100000) (k : Fin 1024) :
    val_main_v9 (F := Ideal) x0 x2 x3 x4 (ix2 n k)
      = (∑ j : Fin 1024, Spec.hid1 x0 x2 n j * x3 (ix2 j k)) * Spec.c + x4 (ix1 k) := by
  rw [val_main_v9_apply, val_main_v6_apply, val_main_v4_apply, val_main_v5_apply, val_main_cst_0_apply,
    val_main_v8_apply, val_main_v7_apply]
  have el : ∀ j : Fin 1024, lidx_main_v4 (ix2 n k) j = ix2 n j := fun j => funext fun a => by
    match a with
    | ⟨0, _⟩ => rfl
    | ⟨1, _⟩ => rfl
  have er : ∀ j : Fin 1024, ridx_main_v4 (ix2 n k) j = ix2 j k := fun j => funext fun a => by
    match a with
    | ⟨0, _⟩ => rfl
    | ⟨1, _⟩ => rfl
  have eb : idx_main_v7 (idx_main_v8 (ix2 n k)) = ix1 k := funext fun a => by
    match a with
    | ⟨0, _⟩ => rfl
  simp only [el, er, eb, v3_apply]
  rfl

/-- The second hidden layer. -/
theorem v10_apply (n : Fin 100000) (k : Fin 1024) :
    val_main_v10 (F := Ideal) x0 x2 x3 x4 (ix2 n k) = Spec.hid2 x0 x2 x3 x4 n k := by
  rw [val_main_v10_apply, val_main_call1_v5_apply, val_main_call1_v4_apply, val_main_call1_cst_0_apply,
    val_main_call1_v3_apply, val_main_call1_v2_apply, val_main_call1_cst_apply, val_main_call1_v1_apply,
    val_main_call1_v0_apply, host_gate, v9_apply]
  rfl

/-- The head selector: the one-hot rows repeated along each head's 256 channels and flattened. -/
theorem v14_apply (n : Fin 100000) (k : Fin 1024) :
    val_main_v14 (F := Ideal) x1 (ix2 n k) = Spec.gate (x1 (ix1 n)) k := by
  rw [val_main_v14_apply, val_main_v13_apply, val_main_v12_apply, val_main_v11_apply, val_main_call2_v4_apply,
    val_main_call2_v2_apply, val_main_call2_v0_apply, val_main_call2_v3_apply, val_main_call2_v1_apply,
    Words.uitofp_eq]
  have hn := n.isLt
  have hk := k.isLt
  have e1 : idx_main_call2_v0 (idx_main_call2_v2 (idx_main_v12 (idx_main_v13 (idx_main_v14 (ix2 n k))))) = ix1 n :=
    funext fun a => by
      match a with
      | ⟨0, _⟩ => exact Fin.ext (by show (n.val * 1024 + k.val) / 1024 = n.val; omega)
  have e2 : ((idx_main_call2_v3 (idx_main_v12 (idx_main_v13 (idx_main_v14 (ix2 n k))))) 1).val = k.val / 256 := by
    show (n.val * 1024 + k.val) / 256 % 4 = k.val / 256
    omega
  rw [e1, e2]
  rfl

/-- The reference's result is the specification, as whole arrays. -/
theorem ref_eq : val_main_v21 (F := Ideal) x0 x1 x2 x3 x4 x5 x6 = Spec.G x0 x1 x2 x3 x4 x5 x6 := by
  funext i
  obtain ⟨n, o, rfl⟩ : ∃ (n : Fin 100000) (o : Fin 4), i = ix2 n o := ⟨i 0, i 1, eq_ix2 i⟩
  rw [Spec.G_apply, val_main_v21_apply, val_main_v18_apply, val_main_v16_apply, val_main_v17_apply,
    val_main_cst_1_apply, val_main_v20_apply, val_main_v19_apply]
  have el : ∀ j : Fin 1024, lidx_main_v16 (ix2 n o) j = ix2 n j := fun j => funext fun a => by
    match a with
    | ⟨0, _⟩ => rfl
    | ⟨1, _⟩ => rfl
  have er : ∀ j : Fin 1024, ridx_main_v16 (ix2 n o) j = ix2 j o := fun j => funext fun a => by
    match a with
    | ⟨0, _⟩ => rfl
    | ⟨1, _⟩ => rfl
  have eb : idx_main_v19 (idx_main_v20 (ix2 n o)) = ix1 o := funext fun a => by
    match a with
    | ⟨0, _⟩ => rfl
  simp only [el, er, eb, val_main_v15_apply, v10_apply, v14_apply]
  rfl

end Cert.RefIsSpec

end
-- ==== Proof.lean ====
/-
  The certificate's five claims.

  The two kernel programs and the reference run and leave their arguments unchanged: the kernels by their launch and
  body runs, the reference by its run with the result dropped. The idealized kernel is the kernel's own text read on the
  extended reals: nothing was rewritten, so there is nothing to preserve. And the idealized kernel and the idealized
  reference end with the same result array: both end at one function of the seven argument arrays — two dense layers
  gated by z · σ(z), the channels of the node's own head kept, a readout to four numbers — the kernel block of 2000
  nodes by block, with its readout taken column by column as lane sums against the transposed matrix, the reference on
  whole arrays with one-hot rows spread over the channels; every sum is over the same 1024 terms in the same order, so
  no step asks the inputs to be finite.
-/
import proofs.«100250_j20864951124193_2_alg».proof.Defs
import proofs.«100250_j20864951124193_2_alg».proof.Proof.Gen.Kernel
import proofs.«100250_j20864951124193_2_alg».proof.Proof.Gen.Kernel.Skeleton
import proofs.«100250_j20864951124193_2_alg».proof.Proof.Gen.Kernel.Launch
import proofs.«100250_j20864951124193_2_alg».proof.Proof.Gen.Kernel.Points
import proofs.«100250_j20864951124193_2_alg».proof.Proof.Gen.Kernel.Frame
import proofs.«100250_j20864951124193_2_alg».proof.Proof.Gen.KernelIdeal
import proofs.«100250_j20864951124193_2_alg».proof.Proof.Gen.KernelIdeal.Skeleton
import proofs.«100250_j20864951124193_2_alg».proof.Proof.Gen.KernelIdeal.Launch
import proofs.«100250_j20864951124193_2_alg».proof.Proof.Gen.KernelIdeal.Points
import proofs.«100250_j20864951124193_2_alg».proof.Proof.Gen.KernelIdeal.Frame
import proofs.«100250_j20864951124193_2_alg».proof.Proof.Gen.KernelIdeal.Value
import proofs.«100250_j20864951124193_2_alg».proof.Proof.Gen.ReferenceIdeal
import proofs.«100250_j20864951124193_2_alg».proof.Proof.Gen.ReferenceIdeal.Run
import proofs.«100250_j20864951124193_2_alg».proof.Proof.Gen.ReferenceIdeal.Read
import proofs.«100250_j20864951124193_2_alg».proof.Proof.Gen.Pre_finite_inputs
import proofs.«100250_j20864951124193_2_alg».proof.Proof.KernelValue
import proofs.«100250_j20864951124193_2_alg».proof.Proof.RefIsSpec
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The kernel on the extended reals runs and keeps its arguments. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both programs end with the specification of the arguments in their result array, and the arguments agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.RefIsSpec.ref_eq, h0, h1, h2, h3, h4, h5, h6]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
